-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x1024 : Shape := ⟨3, ![2, 32, 1024]⟩
abbrev S1024x4096 : Shape := ⟨2, ![1024, 4096]⟩
abbrev S_ : Shape := ⟨0, ![]⟩

class Facts : Prop where
  bcast_S_S2x32x1024 : S_.BroadcastsInDim S2x32x1024 (![] : Fin 0 → Fin S2x32x1024.rank)
  reducesTo_S2x32x1024_S_d0_1_2 : S2x32x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S2x32x1024 .f32) (main_arg1 : FVec F S1024x4096 .f32) : IVec S_ 1 :=
  let main_v0 : FVec F S2x32x1024 .f32 := Host.absf main_arg0
  let main_cst : FVec F S_ .f32 := constant S_ .f32 0x7F800000#32
  let main_v1 : FVec F S2x32x1024 .f32 := broadcastInDim S2x32x1024 ![] bcast_S_S2x32x1024 main_cst
  let main_v2 : IVec S2x32x1024 1 := cmpf .olt main_v0 main_v1
  let main_c : IVec S_ 1 := constantI S_ 1 1#1
  let main_v3 : IVec S_ 1 := (fun x v => Host.reduce IntOp.andi x v reducesTo_S2x32x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S2x32x1024 : Shape := ⟨3, ![2, 32, 1024]⟩
abbrev S1024x4096 : Shape := ⟨2, ![1024, 4096]⟩
abbrev S64x1024 : Shape := ⟨2, ![64, 1024]⟩
abbrev S64x4096 : Shape := ⟨2, ![64, 4096]⟩
abbrev S1024x512 : Shape := ⟨2, ![1024, 512]⟩
abbrev S64x512 : Shape := ⟨2, ![64, 512]⟩
abbrev S64x128 : Shape := ⟨2, ![64, 128]⟩
abbrev S128x512 : Shape := ⟨2, ![128, 512]⟩
abbrev S64x1 : Shape := ⟨2, ![64, 1]⟩
abbrev S1x512 : Shape := ⟨2, ![1, 512]⟩
abbrev S2x32x4096 : Shape := ⟨3, ![2, 32, 4096]⟩

abbrev nBuf : Space → Nat
  | .hbm => 6
  | .vmem => 5
  | .smem => 0
  | _ => 0

abbrev bufTy : (tb : Table) → Fin (tcTables nBuf tb) → BufTy
  | .hbm, ⟨0, _⟩ => ⟨S2x32x1024, .f32⟩
  | .hbm, ⟨1, _⟩ => ⟨S1024x4096, .f32⟩
  | .hbm, ⟨2, _⟩ => ⟨S64x1024, .f32⟩
  | .hbm, ⟨3, _⟩ => ⟨S1024x4096, .bf16⟩
  | .hbm, ⟨4, _⟩ => ⟨S64x4096, .f32⟩
  | .hbm, ⟨5, _⟩ => ⟨S2x32x4096, .f32⟩
  | .local _ .vmem, ⟨0, _⟩ => ⟨S64x1024, .f32⟩
  | .local _ .vmem, ⟨1, _⟩ => ⟨S1024x512, .bf16⟩
  | .local _ .vmem, ⟨2, _⟩ => ⟨S1024x512, .bf16⟩
  | .local _ .vmem, ⟨3, _⟩ => ⟨S64x512, .f32⟩
  | .local _ .vmem, ⟨4, _⟩ => ⟨S64x512, .f32⟩
  | _, _ => ⟨S2x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v4 : BitVec 32 := Scalar.muli arg4 c128_i32
  v4
def k0_off1 (k0_t1 : Fin k0_t1_loop.trips) : Fin 2 → Nat :=
  let c0_2 : Index := 0#32
  let c0_i32 : BitVec 32 := 0#32
  let c1_i32 : BitVec 32 := 1#32
  let arg4 : BitVec 32 := Scf.iv c0_i32 c1_i32 k0_t1
  let c128_i32 : BitVec 32 := 128#32
  let v4 : BitVec 32 := Scalar.muli arg4 c128_i32
  let v5 : BitVec 32 := v4
  let v6 : Index := Scalar.indexCast v5
  ![0, v6.toNat]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32 : BitVec 32 := 128#32
  let v4 : BitVec 32 := Scalar.muli arg4 c128_i32
  let v5 : BitVec 32 := v4
  let v9 : Index := Scalar.indexCast v5
  let c0_3 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x32x1024_S64x1024 : S2x32x1024.ShapeCasts S64x1024
  bitsLt_bf16_f32 : FTy.bits .bf16 < FTy.bits .f32
  h_S64x128 : 0 < S64x128.numel
  shapeCasts_S64x128_S64x128 : S64x128.ShapeCasts S64x128
  h_S128x512 : 0 < S128x512.numel
  shapeCasts_S128x512_S128x512 : S128x512.ShapeCasts S128x512
  slices_S64x128_o0_0_S64x1 : S64x128.Slices ![0, 0] S64x1
  slices_S128x512_o0_0_S1x512 : S128x512.Slices ![0, 0] S1x512
  broadcasts_S64x1_S64x512 : S64x1.Broadcasts S64x512
  broadcasts_S1x512_S64x512 : S1x512.Broadcasts S64x512
  slices_S64x128_o0_1_S64x1 : S64x128.Slices ![0, 1] S64x1
  slices_S128x512_o1_0_S1x512 : S128x512.Slices ![1, 0] S1x512
  slices_S64x128_o0_2_S64x1 : S64x128.Slices ![0, 2] S64x1
  slices_S128x512_o2_0_S1x512 : S128x512.Slices ![2, 0] S1x512
  slices_S64x128_o0_3_S64x1 : S64x128.Slices ![0, 3] S64x1
  slices_S128x512_o3_0_S1x512 : S128x512.Slices ![3, 0] S1x512
  slices_S64x128_o0_4_S64x1 : S64x128.Slices ![0, 4] S64x1
  slices_S128x512_o4_0_S1x512 : S128x512.Slices ![4, 0] S1x512
  slices_S64x128_o0_5_S64x1 : S64x128.Slices ![0, 5] S64x1
  slices_S128x512_o5_0_S1x512 : S128x512.Slices ![5, 0] S1x512
  slices_S64x128_o0_6_S64x1 : S64x128.Slices ![0, 6] S64x1
  slices_S128x512_o6_0_S1x512 : S128x512.Slices ![6, 0] S1x512
  slices_S64x128_o0_7_S64x1 : S64x128.Slices ![0, 7] S64x1
  slices_S128x512_o7_0_S1x512 : S128x512.Slices ![7, 0] S1x512
  slices_S64x128_o0_8_S64x1 : S64x128.Slices ![0, 8] S64x1
  slices_S128x512_o8_0_S1x512 : S128x512.Slices ![8, 0] S1x512
  slices_S64x128_o0_9_S64x1 : S64x128.Slices ![0, 9] S64x1
  slices_S128x512_o9_0_S1x512 : S128x512.Slices ![9, 0] S1x512
  slices_S64x128_o0_10_S64x1 : S64x128.Slices ![0, 10] S64x1
  slices_S128x512_o10_0_S1x512 : S128x512.Slices ![10, 0] S1x512
  slices_S64x128_o0_11_S64x1 : S64x128.Slices ![0, 11] S64x1
  slices_S128x512_o11_0_S1x512 : S128x512.Slices ![11, 0] S1x512
  slices_S64x128_o0_12_S64x1 : S64x128.Slices ![0, 12] S64x1
  slices_S128x512_o12_0_S1x512 : S128x512.Slices ![12, 0] S1x512
  slices_S64x128_o0_13_S64x1 : S64x128.Slices ![0, 13] S64x1
  slices_S128x512_o13_0_S1x512 : S128x512.Slices ![13, 0] S1x512
  slices_S64x128_o0_14_S64x1 : S64x128.Slices ![0, 14] S64x1
  slices_S128x512_o14_0_S1x512 : S128x512.Slices ![14, 0] S1x512
  slices_S64x128_o0_15_S64x1 : S64x128.Slices ![0, 15] S64x1
  slices_S128x512_o15_0_S1x512 : S128x512.Slices ![15, 0] S1x512
  slices_S64x128_o0_16_S64x1 : S64x128.Slices ![0, 16] S64x1
  slices_S128x512_o16_0_S1x512 : S128x512.Slices ![16, 0] S1x512
  slices_S64x128_o0_17_S64x1 : S64x128.Slices ![0, 17] S64x1
  slices_S128x512_o17_0_S1x512 : S128x512.Slices ![17, 0] S1x512
  slices_S64x128_o0_18_S64x1 : S64x128.Slices ![0, 18] S64x1
  slices_S128x512_o18_0_S1x512 : S128x512.Slices ![18, 0] S1x512
  slices_S64x128_o0_19_S64x1 : S64x128.Slices ![0, 19] S64x1
  slices_S128x512_o19_0_S1x512 : S128x512.Slices ![19, 0] S1x512
  slices_S64x128_o0_20_S64x1 : S64x128.Slices ![0, 20] S64x1
  slices_S128x512_o20_0_S1x512 : S128x512.Slices ![20, 0] S1x512
  slices_S64x128_o0_21_S64x1 : S64x128.Slices ![0, 21] S64x1
  slices_S128x512_o21_0_S1x512 : S128x512.Slices ![21, 0] S1x512
  slices_S64x128_o0_22_S64x1 : S64x128.Slices ![0, 22] S64x1
  slices_S128x512_o22_0_S1x512 : S128x512.Slices ![22, 0] S1x512
  slices_S64x128_o0_23_S64x1 : S64x128.Slices ![0, 23] S64x1
  slices_S128x512_o23_0_S1x512 : S128x512.Slices ![23, 0] S1x512
  slices_S64x128_o0_24_S64x1 : S64x128.Slices ![0, 24] S64x1
  slices_S128x512_o24_0_S1x512 : S128x512.Slices ![24, 0] S1x512
  slices_S64x128_o0_25_S64x1 : S64x128.Slices ![0, 25] S64x1
  slices_S128x512_o25_0_S1x512 : S128x512.Slices ![25, 0] S1x512
  slices_S64x128_o0_26_S64x1 : S64x128.Slices ![0, 26] S64x1
  slices_S128x512_o26_0_S1x512 : S128x512.Slices ![26, 0] S1x512
  slices_S64x128_o0_27_S64x1 : S64x128.Slices ![0, 27] S64x1
  slices_S128x512_o27_0_S1x512 : S128x512.Slices ![27, 0] S1x512
  slices_S64x128_o0_28_S64x1 : S64x128.Slices ![0, 28] S64x1
  slices_S128x512_o28_0_S1x512 : S128x512.Slices ![28, 0] S1x512
  slices_S64x128_o0_29_S64x1 : S64x128.Slices ![0, 29] S64x1
  slices_S128x512_o29_0_S1x512 : S128x512.Slices ![29, 0] S1x512
  slices_S64x128_o0_30_S64x1 : S64x128.Slices ![0, 30] S64x1
  slices_S128x512_o30_0_S1x512 : S128x512.Slices ![30, 0] S1x512
  slices_S64x128_o0_31_S64x1 : S64x128.Slices ![0, 31] S64x1
  slices_S128x512_o31_0_S1x512 : S128x512.Slices ![31, 0] S1x512
  slices_S64x128_o0_32_S64x1 : S64x128.Slices ![0, 32] S64x1
  slices_S128x512_o32_0_S1x512 : S128x512.Slices ![32, 0] S1x512
  slices_S64x128_o0_33_S64x1 : S64x128.Slices ![0, 33] S64x1
  slices_S128x512_o33_0_S1x512 : S128x512.Slices ![33, 0] S1x512
  slices_S64x128_o0_34_S64x1 : S64x128.Slices ![0, 34] S64x1
  slices_S128x512_o34_0_S1x512 : S128x512.Slices ![34, 0] S1x512
  slices_S64x128_o0_35_S64x1 : S64x128.Slices ![0, 35] S64x1
  slices_S128x512_o35_0_S1x512 : S128x512.Slices ![35, 0] S1x512
  slices_S64x128_o0_36_S64x1 : S64x128.Slices ![0, 36] S64x1
  slices_S128x512_o36_0_S1x512 : S128x512.Slices ![36, 0] S1x512
  slices_S64x128_o0_37_S64x1 : S64x128.Slices ![0, 37] S64x1
  slices_S128x512_o37_0_S1x512 : S128x512.Slices ![37, 0] S1x512
  slices_S64x128_o0_38_S64x1 : S64x128.Slices ![0, 38] S64x1
  slices_S128x512_o38_0_S1x512 : S128x512.Slices ![38, 0] S1x512
  slices_S64x128_o0_39_S64x1 : S64x128.Slices ![0, 39] S64x1
  slices_S128x512_o39_0_S1x512 : S128x512.Slices ![39, 0] S1x512
  slices_S64x128_o0_40_S64x1 : S64x128.Slices ![0, 40] S64x1
  slices_S128x512_o40_0_S1x512 : S128x512.Slices ![40, 0] S1x512
  slices_S64x128_o0_41_S64x1 : S64x128.Slices ![0, 41] S64x1
  slices_S128x512_o41_0_S1x512 : S128x512.Slices ![41, 0] S1x512
  slices_S64x128_o0_42_S64x1 : S64x128.Slices ![0, 42] S64x1
  slices_S128x512_o42_0_S1x512 : S128x512.Slices ![42, 0] S1x512
  slices_S64x128_o0_43_S64x1 : S64x128.Slices ![0, 43] S64x1
  slices_S128x512_o43_0_S1x512 : S128x512.Slices ![43, 0] S1x512
  slices_S64x128_o0_44_S64x1 : S64x128.Slices ![0, 44] S64x1
  slices_S128x512_o44_0_S1x512 : S128x512.Slices ![44, 0] S1x512
  slices_S64x128_o0_45_S64x1 : S64x128.Slices ![0, 45] S64x1
  slices_S128x512_o45_0_S1x512 : S128x512.Slices ![45, 0] S1x512
  slices_S64x128_o0_46_S64x1 : S64x128.Slices ![0, 46] S64x1
  slices_S128x512_o46_0_S1x512 : S128x512.Slices ![46, 0] S1x512
  slices_S64x128_o0_47_S64x1 : S64x128.Slices ![0, 47] S64x1
  slices_S128x512_o47_0_S1x512 : S128x512.Slices ![47, 0] S1x512
  slices_S64x128_o0_48_S64x1 : S64x128.Slices ![0, 48] S64x1
  slices_S128x512_o48_0_S1x512 : S128x512.Slices ![48, 0] S1x512
  slices_S64x128_o0_49_S64x1 : S64x128.Slices ![0, 49] S64x1
  slices_S128x512_o49_0_S1x512 : S128x512.Slices ![49, 0] S1x512
  slices_S64x128_o0_50_S64x1 : S64x128.Slices ![0, 50] S64x1
  slices_S128x512_o50_0_S1x512 : S128x512.Slices ![50, 0] S1x512
  slices_S64x128_o0_51_S64x1 : S64x128.Slices ![0, 51] S64x1
  slices_S128x512_o51_0_S1x512 : S128x512.Slices ![51, 0] S1x512
  slices_S64x128_o0_52_S64x1 : S64x128.Slices ![0, 52] S64x1
  slices_S128x512_o52_0_S1x512 : S128x512.Slices ![52, 0] S1x512
  slices_S64x128_o0_53_S64x1 : S64x128.Slices ![0, 53] S64x1
  slices_S128x512_o53_0_S1x512 : S128x512.Slices ![53, 0] S1x512
  slices_S64x128_o0_54_S64x1 : S64x128.Slices ![0, 54] S64x1
  slices_S128x512_o54_0_S1x512 : S128x512.Slices ![54, 0] S1x512
  slices_S64x128_o0_55_S64x1 : S64x128.Slices ![0, 55] S64x1
  slices_S128x512_o55_0_S1x512 : S128x512.Slices ![55, 0] S1x512
  slices_S64x128_o0_56_S64x1 : S64x128.Slices ![0, 56] S64x1
  slices_S128x512_o56_0_S1x512 : S128x512.Slices ![56, 0] S1x512
  slices_S64x128_o0_57_S64x1 : S64x128.Slices ![0, 57] S64x1
  slices_S128x512_o57_0_S1x512 : S128x512.Slices ![57, 0] S1x512
  slices_S64x128_o0_58_S64x1 : S64x128.Slices ![0, 58] S64x1
  slices_S128x512_o58_0_S1x512 : S128x512.Slices ![58, 0] S1x512
  slices_S64x128_o0_59_S64x1 : S64x128.Slices ![0, 59] S64x1
  slices_S128x512_o59_0_S1x512 : S128x512.Slices ![59, 0] S1x512
  slices_S64x128_o0_60_S64x1 : S64x128.Slices ![0, 60] S64x1
  slices_S128x512_o60_0_S1x512 : S128x512.Slices ![60, 0] S1x512
  slices_S64x128_o0_61_S64x1 : S64x128.Slices ![0, 61] S64x1
  slices_S128x512_o61_0_S1x512 : S128x512.Slices ![61, 0] S1x512
  slices_S64x128_o0_62_S64x1 : S64x128.Slices ![0, 62] S64x1
  slices_S128x512_o62_0_S1x512 : S128x512.Slices ![62, 0] S1x512
  slices_S64x128_o0_63_S64x1 : S64x128.Slices ![0, 63] S64x1
  slices_S128x512_o63_0_S1x512 : S128x512.Slices ![63, 0] S1x512
  slices_S64x128_o0_64_S64x1 : S64x128.Slices ![0, 64] S64x1
  slices_S128x512_o64_0_S1x512 : S128x512.Slices ![64, 0] S1x512
  slices_S64x128_o0_65_S64x1 : S64x128.Slices ![0, 65] S64x1
  slices_S128x512_o65_0_S1x512 : S128x512.Slices ![65, 0] S1x512
  slices_S64x128_o0_66_S64x1 : S64x128.Slices ![0, 66] S64x1
  slices_S128x512_o66_0_S1x512 : S128x512.Slices ![66, 0] S1x512
  slices_S64x128_o0_67_S64x1 : S64x128.Slices ![0, 67] S64x1
  slices_S128x512_o67_0_S1x512 : S128x512.Slices ![67, 0] S1x512
  slices_S64x128_o0_68_S64x1 : S64x128.Slices ![0, 68] S64x1
  slices_S128x512_o68_0_S1x512 : S128x512.Slices ![68, 0] S1x512
  slices_S64x128_o0_69_S64x1 : S64x128.Slices ![0, 69] S64x1
  slices_S128x512_o69_0_S1x512 : S128x512.Slices ![69, 0] S1x512
  slices_S64x128_o0_70_S64x1 : S64x128.Slices ![0, 70] S64x1
  slices_S128x512_o70_0_S1x512 : S128x512.Slices ![70, 0] S1x512
  slices_S64x128_o0_71_S64x1 : S64x128.Slices ![0, 71] S64x1
  slices_S128x512_o71_0_S1x512 : S128x512.Slices ![71, 0] S1x512
  slices_S64x128_o0_72_S64x1 : S64x128.Slices ![0, 72] S64x1
  slices_S128x512_o72_0_S1x512 : S128x512.Slices ![72, 0] S1x512
  slices_S64x128_o0_73_S64x1 : S64x128.Slices ![0, 73] S64x1
  slices_S128x512_o73_0_S1x512 : S128x512.Slices ![73, 0] S1x512
  slices_S64x128_o0_74_S64x1 : S64x128.Slices ![0, 74] S64x1
  slices_S128x512_o74_0_S1x512 : S128x512.Slices ![74, 0] S1x512
  slices_S64x128_o0_75_S64x1 : S64x128.Slices ![0, 75] S64x1
  slices_S128x512_o75_0_S1x512 : S128x512.Slices ![75, 0] S1x512
  slices_S64x128_o0_76_S64x1 : S64x128.Slices ![0, 76] S64x1
  slices_S128x512_o76_0_S1x512 : S128x512.Slices ![76, 0] S1x512
  slices_S64x128_o0_77_S64x1 : S64x128.Slices ![0, 77] S64x1
  slices_S128x512_o77_0_S1x512 : S128x512.Slices ![77, 0] S1x512
  slices_S64x128_o0_78_S64x1 : S64x128.Slices ![0, 78] S64x1
  slices_S128x512_o78_0_S1x512 : S128x512.Slices ![78, 0] S1x512
  slices_S64x128_o0_79_S64x1 : S64x128.Slices ![0, 79] S64x1
  slices_S128x512_o79_0_S1x512 : S128x512.Slices ![79, 0] S1x512
  slices_S64x128_o0_80_S64x1 : S64x128.Slices ![0, 80] S64x1
  slices_S128x512_o80_0_S1x512 : S128x512.Slices ![80, 0] S1x512
  slices_S64x128_o0_81_S64x1 : S64x128.Slices ![0, 81] S64x1
  slices_S128x512_o81_0_S1x512 : S128x512.Slices ![81, 0] S1x512
  slices_S64x128_o0_82_S64x1 : S64x128.Slices ![0, 82] S64x1
  slices_S128x512_o82_0_S1x512 : S128x512.Slices ![82, 0] S1x512
  slices_S64x128_o0_83_S64x1 : S64x128.Slices ![0, 83] S64x1
  slices_S128x512_o83_0_S1x512 : S128x512.Slices ![83, 0] S1x512
  slices_S64x128_o0_84_S64x1 : S64x128.Slices ![0, 84] S64x1
  slices_S128x512_o84_0_S1x512 : S128x512.Slices ![84, 0] S1x512
  slices_S64x128_o0_85_S64x1 : S64x128.Slices ![0, 85] S64x1
  slices_S128x512_o85_0_S1x512 : S128x512.Slices ![85, 0] S1x512
  slices_S64x128_o0_86_S64x1 : S64x128.Slices ![0, 86] S64x1
  slices_S128x512_o86_0_S1x512 : S128x512.Slices ![86, 0] S1x512
  slices_S64x128_o0_87_S64x1 : S64x128.Slices ![0, 87] S64x1
  slices_S128x512_o87_0_S1x512 : S128x512.Slices ![87, 0] S1x512
  slices_S64x128_o0_88_S64x1 : S64x128.Slices ![0, 88] S64x1
  slices_S128x512_o88_0_S1x512 : S128x512.Slices ![88, 0] S1x512
  slices_S64x128_o0_89_S64x1 : S64x128.Slices ![0, 89] S64x1
  slices_S128x512_o89_0_S1x512 : S128x512.Slices ![89, 0] S1x512
  slices_S64x128_o0_90_S64x1 : S64x128.Slices ![0, 90] S64x1
  slices_S128x512_o90_0_S1x512 : S128x512.Slices ![90, 0] S1x512
  slices_S64x128_o0_91_S64x1 : S64x128.Slices ![0, 91] S64x1
  slices_S128x512_o91_0_S1x512 : S128x512.Slices ![91, 0] S1x512
  slices_S64x128_o0_92_S64x1 : S64x128.Slices ![0, 92] S64x1
  slices_S128x512_o92_0_S1x512 : S128x512.Slices ![92, 0] S1x512
  slices_S64x128_o0_93_S64x1 : S64x128.Slices ![0, 93] S64x1
  slices_S128x512_o93_0_S1x512 : S128x512.Slices ![93, 0] S1x512
  slices_S64x128_o0_94_S64x1 : S64x128.Slices ![0, 94] S64x1
  slices_S128x512_o94_0_S1x512 : S128x512.Slices ![94, 0] S1x512
  slices_S64x128_o0_95_S64x1 : S64x128.Slices ![0, 95] S64x1
  slices_S128x512_o95_0_S1x512 : S128x512.Slices ![95, 0] S1x512
  slices_S64x128_o0_96_S64x1 : S64x128.Slices ![0, 96] S64x1
  slices_S128x512_o96_0_S1x512 : S128x512.Slices ![96, 0] S1x512
  slices_S64x128_o0_97_S64x1 : S64x128.Slices ![0, 97] S64x1
  slices_S128x512_o97_0_S1x512 : S128x512.Slices ![97, 0] S1x512
  slices_S64x128_o0_98_S64x1 : S64x128.Slices ![0, 98] S64x1
  slices_S128x512_o98_0_S1x512 : S128x512.Slices ![98, 0] S1x512
  slices_S64x128_o0_99_S64x1 : S64x128.Slices ![0, 99] S64x1
  slices_S128x512_o99_0_S1x512 : S128x512.Slices ![99, 0] S1x512
  slices_S64x128_o0_100_S64x1 : S64x128.Slices ![0, 100] S64x1
  slices_S128x512_o100_0_S1x512 : S128x512.Slices ![100, 0] S1x512
  slices_S64x128_o0_101_S64x1 : S64x128.Slices ![0, 101] S64x1
  slices_S128x512_o101_0_S1x512 : S128x512.Slices ![101, 0] S1x512
  slices_S64x128_o0_102_S64x1 : S64x128.Slices ![0, 102] S64x1
  slices_S128x512_o102_0_S1x512 : S128x512.Slices ![102, 0] S1x512
  slices_S64x128_o0_103_S64x1 : S64x128.Slices ![0, 103] S64x1
  slices_S128x512_o103_0_S1x512 : S128x512.Slices ![103, 0] S1x512
  slices_S64x128_o0_104_S64x1 : S64x128.Slices ![0, 104] S64x1
  slices_S128x512_o104_0_S1x512 : S128x512.Slices ![104, 0] S1x512
  slices_S64x128_o0_105_S64x1 : S64x128.Slices ![0, 105] S64x1
  slices_S128x512_o105_0_S1x512 : S128x512.Slices ![105, 0] S1x512
  slices_S64x128_o0_106_S64x1 : S64x128.Slices ![0, 106] S64x1
  slices_S128x512_o106_0_S1x512 : S128x512.Slices ![106, 0] S1x512
  slices_S64x128_o0_107_S64x1 : S64x128.Slices ![0, 107] S64x1
  slices_S128x512_o107_0_S1x512 : S128x512.Slices ![107, 0] S1x512
  slices_S64x128_o0_108_S64x1 : S64x128.Slices ![0, 108] S64x1
  slices_S128x512_o108_0_S1x512 : S128x512.Slices ![108, 0] S1x512
  slices_S64x128_o0_109_S64x1 : S64x128.Slices ![0, 109] S64x1
  slices_S128x512_o109_0_S1x512 : S128x512.Slices ![109, 0] S1x512
  slices_S64x128_o0_110_S64x1 : S64x128.Slices ![0, 110] S64x1
  slices_S128x512_o110_0_S1x512 : S128x512.Slices ![110, 0] S1x512
  slices_S64x128_o0_111_S64x1 : S64x128.Slices ![0, 111] S64x1
  slices_S128x512_o111_0_S1x512 : S128x512.Slices ![111, 0] S1x512
  slices_S64x128_o0_112_S64x1 : S64x128.Slices ![0, 112] S64x1
  slices_S128x512_o112_0_S1x512 : S128x512.Slices ![112, 0] S1x512
  slices_S64x128_o0_113_S64x1 : S64x128.Slices ![0, 113] S64x1
  slices_S128x512_o113_0_S1x512 : S128x512.Slices ![113, 0] S1x512
  slices_S64x128_o0_114_S64x1 : S64x128.Slices ![0, 114] S64x1
  slices_S128x512_o114_0_S1x512 : S128x512.Slices ![114, 0] S1x512
  slices_S64x128_o0_115_S64x1 : S64x128.Slices ![0, 115] S64x1
  slices_S128x512_o115_0_S1x512 : S128x512.Slices ![115, 0] S1x512
  slices_S64x128_o0_116_S64x1 : S64x128.Slices ![0, 116] S64x1
  slices_S128x512_o116_0_S1x512 : S128x512.Slices ![116, 0] S1x512
  slices_S64x128_o0_117_S64x1 : S64x128.Slices ![0, 117] S64x1
  slices_S128x512_o117_0_S1x512 : S128x512.Slices ![117, 0] S1x512
  slices_S64x128_o0_118_S64x1 : S64x128.Slices ![0, 118] S64x1
  slices_S128x512_o118_0_S1x512 : S128x512.Slices ![118, 0] S1x512
  slices_S64x128_o0_119_S64x1 : S64x128.Slices ![0, 119] S64x1
  slices_S128x512_o119_0_S1x512 : S128x512.Slices ![119, 0] S1x512
  slices_S64x128_o0_120_S64x1 : S64x128.Slices ![0, 120] S64x1
  slices_S128x512_o120_0_S1x512 : S128x512.Slices ![120, 0] S1x512
  slices_S64x128_o0_121_S64x1 : S64x128.Slices ![0, 121] S64x1
  slices_S128x512_o121_0_S1x512 : S128x512.Slices ![121, 0] S1x512
  slices_S64x128_o0_122_S64x1 : S64x128.Slices ![0, 122] S64x1
  slices_S128x512_o122_0_S1x512 : S128x512.Slices ![122, 0] S1x512
  slices_S64x128_o0_123_S64x1 : S64x128.Slices ![0, 123] S64x1
  slices_S128x512_o123_0_S1x512 : S128x512.Slices ![123, 0] S1x512
  slices_S64x128_o0_124_S64x1 : S64x128.Slices ![0, 124] S64x1
  slices_S128x512_o124_0_S1x512 : S128x512.Slices ![124, 0] S1x512
  slices_S64x128_o0_125_S64x1 : S64x128.Slices ![0, 125] S64x1
  slices_S128x512_o125_0_S1x512 : S128x512.Slices ![125, 0] S1x512
  slices_S64x128_o0_126_S64x1 : S64x128.Slices ![0, 126] S64x1
  slices_S128x512_o126_0_S1x512 : S128x512.Slices ![126, 0] S1x512
  slices_S64x128_o0_127_S64x1 : S64x128.Slices ![0, 127] S64x1
  slices_S128x512_o127_0_S1x512 : S128x512.Slices ![127, 0] S1x512
  inb_S64x512_S64x512_0_0 : ∀ a, (![0, 0] : Fin 2 → Nat) a + S64x512.size a ≤ S64x512.size a
  h_S64x512 : 0 < S64x512.numel
  shapeCasts_S64x4096_S2x32x4096 : S64x4096.ShapeCasts S2x32x4096
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S64x128.size a ≤ S64x1024.size a
  k0_off2_inb : ∀ k0_t1 : Fin k0_t1_loop.trips, ∀ a, (k0_off2 k0_t1) a + S128x512.size a ≤ S1024x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x1024.size a
  hwx0_0 : ∀ i : grid0.Coords, EltTy.bits .f32 = 32 ∨ (Rect.block (s := S64x1024) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .bf16 = 32 ∨ (Rect.block (s := S1024x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x4096.size a
  hwx0_2 : ∀ i : grid0.Coords, EltTy.bits .f32 = 32 ∨ (Rect.block (s := S64x4096) S64x512.size (cc0_transform_2 i) (hinb0_2 i)).WholeWords (EltTy.packing .f32)

variable [Facts₀]

abbrev win0_0 : Pipeline.Window sig grid0 :=
  Pipeline.Window.ofSpec (Memref.whole main_v0) S64x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x32x1024 : Shape := ⟨3, ![2, 32, 1024]⟩
abbrev S1024x4096 : Shape := ⟨2, ![1024, 4096]⟩
abbrev S2x32x1024x1 : Shape := ⟨4, ![2, 32, 1024, 1]⟩
abbrev S1x1x1024x4096 : Shape := ⟨4, ![1, 1, 1024, 4096]⟩
abbrev S2x32x1024x4096 : Shape := ⟨4, ![2, 32, 1024, 4096]⟩
abbrev S_ : Shape := ⟨0, ![]⟩
abbrev S2x32x4096 : Shape := ⟨3, ![2, 32, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x32x1024, .f32⟩
  | .hbm, ⟨1, _⟩ => ⟨S1024x4096, .f32⟩
  | .hbm, ⟨2, _⟩ => ⟨S2x32x1024x1, .f32⟩
  | .hbm, ⟨3, _⟩ => ⟨S1x1x1024x4096, .f32⟩
  | .hbm, ⟨4, _⟩ => ⟨S2x32x1024x4096, .f32⟩
  | .hbm, ⟨5, _⟩ => ⟨S2x32x1024x4096, .f32⟩
  | .hbm, ⟨6, _⟩ => ⟨S2x32x1024x4096, .f32⟩
  | .hbm, ⟨7, _⟩ => ⟨S_, .f32⟩
  | .hbm, ⟨8, _⟩ => ⟨S2x32x4096, .f32⟩
  | _, _ => ⟨S2x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S2x32x1024_S2x32x1024x1_0_1_2 : S2x32x1024.BroadcastsInDim S2x32x1024x1 (![0, 1, 2] : Fin 3 → Fin S2x32x1024x1.rank)
  bcast_S1024x4096_S1x1x1024x4096_2_3 : S1024x4096.BroadcastsInDim S1x1x1024x4096 (![2, 3] : Fin 2 → Fin S1x1x1024x4096.rank)
  bcast_S2x32x1024x1_S2x32x1024x4096_0_1_2_3 : S2x32x1024x1.BroadcastsInDim S2x32x1024x4096 (![0, 1, 2, 3] : Fin 4 → Fin S2x32x1024x4096.rank)
  bcast_S1x1x1024x4096_S2x32x1024x4096_0_1_2_3 : S1x1x1024x4096.BroadcastsInDim S2x32x1024x4096 (![0, 1, 2, 3] : Fin 4 → Fin S2x32x1024x4096.rank)
  reducesTo_S2x32x1024x4096_S2x32x4096_d2 : S2x32x1024x4096.ReducesTo [2] S2x32x4096
  h_S_ : 0 < S_.numel

variable [Facts₀]

class Facts : Prop extends Facts₀ where

variable [Facts]
-- ==== Proof.LibRunMax.lean ====
/-
  Running maxima in a linear order.

  A value accumulated as `acc := max acc (f i)` for i = 0, 1, …, n-1 is written `runMax f a n`; the same
  accumulation carried out in `k` consecutive blocks of `b` terms each is `blockMax g b a k`.  Neither is
  ever compared term by term with another way of taking the same maximum: each is characterised by its
  upper bounds — `runMax f a n ≤ z` exactly when `a ≤ z` and every one of the `n` terms is `≤ z` — and two
  elements of a partial order with the same upper bounds are equal.  Nothing here needs the terms to be
  finite, so the lemmas apply to extended reals with either infinity among the terms.
-/
import Mathlib.Order.Lattice
import Mathlib.Order.Basic
import Mathlib.Data.Finset.Fold
import Mathlib.Data.Fintype.Basic
import Mathlib.Data.Fin.Basic

namespace RunMax

variable {α : Type*} [LinearOrder α]

/-- `a` joined with the first `n` terms of `f`, one at a time from the left. -/
def runMax (f : ℕ → α) (a : α) : ℕ → α
  | 0 => a
  | n + 1 => max (runMax f a n) (f n)

@[simp] theorem runMax_zero (f : ℕ → α) (a : α) : runMax f a 0 = a := rfl

theorem runMax_succ (f : ℕ → α) (a : α) (n : ℕ) : runMax f a (n + 1) = max (runMax f a n) (f n) := rfl

/-- The upper bounds of a running maximum are the common upper bounds of its start and its terms. -/
theorem runMax_le_iff (f : ℕ → α) (a : α) (n : ℕ) (z : α) :
    runMax f a n ≤ z ↔ a ≤ z ∧ ∀ i < n, f i ≤ z := by
  induction n with
  | zero => exact ⟨fun h => ⟨h, fun i hi => absurd hi (Nat.not_lt_zero i)⟩, fun h => h.1⟩
  | succ n ih =>
    rw [runMax_succ, max_le_iff, ih]
    constructor
    · rintro ⟨⟨ha, hf⟩, hn⟩
      refine ⟨ha, fun i hi => ?_⟩
      rcases Nat.lt_succ_iff_lt_or_eq.mp hi with h | rfl
      · exact hf i h
      · exact hn
    · rintro ⟨ha, hf⟩
      exact ⟨⟨ha, fun i hi => hf i (Nat.lt_succ_of_lt hi)⟩, hf n (Nat.lt_succ_self n)⟩

/-- A running maximum depends on its first `n` terms only. -/
theorem runMax_congr {f f' : ℕ → α} {a : α} {n : ℕ} (h : ∀ i < n, f i = f' i) : runMax f a n = runMax f' a n := by
  induction n with
  | zero => rfl
  | succ n ih =>
    rw [runMax_succ, runMax_succ, ih (fun i hi => h i (Nat.lt_succ_of_lt hi)), h n (Nat.lt_succ_self n)]

/-- Continuing a running maximum past its first `lo` terms by `n` more is the running maximum of `lo + n` terms. -/
theorem runMax_add (f : ℕ → α) (a : α) (lo n : ℕ) :
    runMax (fun i => f (lo + i)) (runMax f a lo) n = runMax f a (lo + n) := by
  induction n with
  | zero => rfl
  | succ n ih => rw [runMax_succ, ih]; rfl

/-- `k` consecutive blocks of `b` terms of `g`, each block a running maximum started from the block before. -/
def blockMax (g : ℕ → α) (b : ℕ) (a : α) : ℕ → α
  | 0 => a
  | k + 1 => runMax (fun i => g (b * k + i)) (blockMax g b a k) b

@[simp] theorem blockMax_zero (g : ℕ → α) (b : ℕ) (a : α) : blockMax g b a 0 = a := rfl

theorem blockMax_succ (g : ℕ → α) (b : ℕ) (a : α) (k : ℕ) :
    blockMax g b a (k + 1) = runMax (fun i => g (b * k + i)) (blockMax g b a k) b := rfl

/-- The upper bounds of a maximum taken block by block are those of its start and of all `b * k` terms. -/
theorem blockMax_le_iff (g : ℕ → α) (b : ℕ) (a : α) (k : ℕ) (z : α) :
    blockMax g b a k ≤ z ↔ a ≤ z ∧ ∀ n < b * k, g n ≤ z := by
  induction k with
  | zero =>
    exact ⟨fun h => ⟨h, fun n hn => absurd hn (by rw [Nat.mul_zero]; exact Nat.not_lt_zero n)⟩, fun h => h.1⟩
  | succ k ih =>
    rw [blockMax_succ, runMax_le_iff, ih, Nat.mul_succ]
    constructor
    · rintro ⟨⟨ha, hlo⟩, hhi⟩
      refine ⟨ha, fun n hn => ?_⟩
      by_cases h : n < b * k
      · exact hlo n h
      · have e : n = b * k + (n - b * k) := by omega
        rw [e]; exact hhi _ (by omega)
    · rintro ⟨ha, h⟩
      exact ⟨⟨ha, fun n hn => h n (by omega)⟩, fun i hi => h _ (by omega)⟩

/-- A fold of `max` over all of `Fin N` has the upper bounds of its start and of every term. -/
theorem fold_univ_le_iff {N : ℕ} (e : α) (h : Fin N → α) (z : α) :
    (Finset.univ : Finset (Fin N)).fold max e h ≤ z ↔ e ≤ z ∧ ∀ n : Fin N, h n ≤ z := by
  rw [Finset.fold_max_le]
  exact ⟨fun ⟨a, b⟩ => ⟨a, fun n => b n (Finset.mem_univ n)⟩, fun ⟨a, b⟩ => ⟨a, fun n _ => b n⟩⟩

/-- A maximum taken block by block over `b * k = N` terms, the terms those of `h : Fin N → α` in order,
    is the fold of `max` over `Fin N` from the same start. -/
theorem blockMax_eq_fold {N : ℕ} (g : ℕ → α) (b k : ℕ) (hN : b * k = N) (e : α) (h : Fin N → α)
    (hg : ∀ n : Fin N, g n.val = h n) :
    blockMax g b e k = (Finset.univ : Finset (Fin N)).fold max e h := by
  refine eq_of_forall_ge_iff fun z => ?_
  rw [blockMax_le_iff, fold_univ_le_iff, hN]
  exact ⟨fun ⟨a, c⟩ => ⟨a, fun n => hg n ▸ c n.val n.isLt⟩, fun ⟨a, c⟩ => ⟨a, fun n hn => hg ⟨n, hn⟩ ▸ c ⟨n, hn⟩⟩⟩

end RunMax
-- ==== Proof.Steps.lean ====
/-
  One chunk of the pooling kernel's body, read at an index.

  Inside a grid point the kernel walks the contraction axis in chunks of 128.  For a chunk it holds a
  [64, 128] piece `xc` of the activations and a [128, 512] piece `bc` of the incidence block, and for
  i = 0, …, 127 in turn replaces the accumulator by its maximum with the outer product of column i of `xc`
  and row i of `bc`.  At entry (p, q) that outer product is the single product xc(p, i) · bc(i, q)
  (`chunkTerm`): the column is cut out as a [64, 1] slice and stretched along the lanes, the row as a
  [1, 512] slice stretched down the sublanes, and both stretches read back the one entry they came from.
  The printed body is cut into thirty named values; each is shown here to be a running maximum
  (`RunMax.runMax`) of consecutive chunk terms, started from the value it continues.
-/
import proofs.«104553_j16320875724845_2_alg».proof.Proof.Gen.KernelIdeal.Skeleton
import proofs.«104553_j16320875724845_2_alg».proof.Proof.LibRunMax
import Idealize.ShloMosaic.Lib.ValueIdx
import Idealize.ShloMosaic.Lib.ValueLayout
import Idealize.ShloMosaic.Lib.Pipeline.Value

set_option maxRecDepth 16384

noncomputable section

namespace Cert.KernelIdeal.PoolValue

open Idealize.ShloMosaic Idealize.ShloMosaic.ValueIdx Cert.KernelIdeal Cert.KernelIdeal.Gen RunMax

/-- Term `i` of a chunk at entry (p, q): column `i` of the activations' piece at row `p` times row `i` of the
    incidence piece at column `q` (for `i ≥ 128`, which never occurs, any value). -/
def chunkTerm (xc : FVec Ideal S64x128 .f32) (bc : FVec Ideal S128x512 .f32) (p : Fin 64) (q : Fin 512) (i : ℕ) : EReal :=
  if h : i < 128 then xc (ix2 p ⟨i, h⟩) * bc (ix2 ⟨i, h⟩ q) else 0

/-- Column `i` of `xc` stretched along the lanes times row `i` of `bc` stretched down the sublanes is, at (p, q),
    the chunk's term `i`. -/
theorem step_apply (xc : FVec Ideal S64x128 .f32) (bc : FVec Ideal S128x512 .f32) (i : ℕ)
    (h1 : S64x128.Slices ![0, i] S64x1) (h2 : S128x512.Slices ![i, 0] S1x512)
    (h3 : S64x1.Broadcasts S64x512) (h4 : S1x512.Broadcasts S64x512) (p : Fin 64) (q : Fin 512) :
    mulf (broadcastTo S64x512 (extractStridedSlice S64x1 ![0, i] xc h1) h3)
        (broadcastTo S64x512 (extractStridedSlice S1x512 ![i, 0] bc h2) h4) (ix2 p q)
      = chunkTerm xc bc p q i := by
  have hi : i < 128 := h1.2 1
  rw [chunkTerm, dif_pos hi, mulf_apply]
  rw [broadcastTo_apply _ h3 (ix2 p q) (ix2 p (0 : Fin 1)) (fun a => match a with
      | ⟨0, _⟩ => by show p.val = if (64 : Nat) = 1 then 0 else p.val; rw [if_neg (by decide)]
      | ⟨1, _⟩ => by show (0 : Nat) = if (1 : Nat) = 1 then 0 else q.val; rw [if_pos rfl]),
    broadcastTo_apply _ h4 (ix2 p q) (ix2 (0 : Fin 1) q) (fun a => match a with
      | ⟨0, _⟩ => by show (0 : Nat) = if (1 : Nat) = 1 then 0 else p.val; rw [if_pos rfl]
      | ⟨1, _⟩ => by show q.val = if (512 : Nat) = 1 then 0 else q.val; rw [if_neg (by decide)]),
    slice2_axis1_apply i xc h1 p (0 : Fin 1) ⟨i, hi⟩ rfl,
    slice2_axis0_apply i bc h2 (0 : Fin 1) q ⟨i, hi⟩ rfl]

/-- The first seven terms of a chunk, started from the carried accumulator. -/
theorem pay5_apply (acc : FVec Ideal S64x512 .f32) (v7 : Vec Ideal S64x128 .f32) (v10 : Vec Ideal S128x512 .bf16)
    (p : Fin 64) (q : Fin 512) :
    k0_pay5 acc v7 v10 (ix2 p q) = runMax (chunkTerm (k0_pay3 v7) (k0_pay4 v10) p q) (acc (ix2 p q)) 7 := by
  unfold k0_pay5
  simp only [maximumf_apply, step_apply]
  rfl

/-- Term 7 of a chunk, computed ahead of the maximum that takes it in. -/
theorem pay6_apply (v7 : Vec Ideal S64x128 .f32) (v10 : Vec Ideal S128x512 .bf16) (p : Fin 64) (q : Fin 512) :
    k0_pay6 v7 v10 (ix2 p q) = chunkTerm (k0_pay3 v7) (k0_pay4 v10) p q 7 := by
  unfold k0_pay6
  simp only [step_apply]

/-- Terms 7 to 16: the pending term 7 is taken in, then nine more. -/
theorem pay7_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 7) (hb : vb (ix2 p q) = chunkTerm v8 v12 p q 7) :
    k0_pay7 v8 v12 va vb (ix2 p q) = runMax (chunkTerm v8 v12 p q) a 17 := by
  unfold k0_pay7
  simp only [maximumf_apply, step_apply, ha, hb]
  rfl

/-- Term 17, computed ahead of the maximum that takes it in. -/
theorem pay8_apply (v8 : FVec Ideal S64x128 .f32) (v12 : FVec Ideal S128x512 .f32) (p : Fin 64) (q : Fin 512) :
    k0_pay8 v8 v12 (ix2 p q) = chunkTerm v8 v12 p q 17 := by
  unfold k0_pay8
  simp only [step_apply]

/-- Terms 17 to 26: the pending term 17 is taken in, then nine more. -/
theorem pay9_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 17) (hb : vb (ix2 p q) = chunkTerm v8 v12 p q 17) :
    k0_pay9 v8 v12 va vb (ix2 p q) = runMax (chunkTerm v8 v12 p q) a 27 := by
  unfold k0_pay9
  simp only [maximumf_apply, step_apply, ha, hb]
  rfl

/-- Term 27, computed ahead of the maximum that takes it in. -/
theorem pay10_apply (v8 : FVec Ideal S64x128 .f32) (v12 : FVec Ideal S128x512 .f32) (p : Fin 64) (q : Fin 512) :
    k0_pay10 v8 v12 (ix2 p q) = chunkTerm v8 v12 p q 27 := by
  unfold k0_pay10
  simp only [step_apply]

/-- Terms 27 to 36: the pending term 27 is taken in, then nine more. -/
theorem pay11_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 27) (hb : vb (ix2 p q) = chunkTerm v8 v12 p q 27) :
    k0_pay11 v8 v12 va vb (ix2 p q) = runMax (chunkTerm v8 v12 p q) a 37 := by
  unfold k0_pay11
  simp only [maximumf_apply, step_apply, ha, hb]
  rfl

/-- Term 37, computed ahead of the maximum that takes it in. -/
theorem pay12_apply (v8 : FVec Ideal S64x128 .f32) (v12 : FVec Ideal S128x512 .f32) (p : Fin 64) (q : Fin 512) :
    k0_pay12 v8 v12 (ix2 p q) = chunkTerm v8 v12 p q 37 := by
  unfold k0_pay12
  simp only [step_apply]

/-- Terms 37 to 46: the pending term 37 is taken in, then nine more. -/
theorem pay13_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 37) (hb : vb (ix2 p q) = chunkTerm v8 v12 p q 37) :
    k0_pay13 v8 v12 va vb (ix2 p q) = runMax (chunkTerm v8 v12 p q) a 47 := by
  unfold k0_pay13
  simp only [maximumf_apply, step_apply, ha, hb]
  rfl

/-- Term 47, computed ahead of the maximum that takes it in. -/
theorem pay14_apply (v8 : FVec Ideal S64x128 .f32) (v12 : FVec Ideal S128x512 .f32) (p : Fin 64) (q : Fin 512) :
    k0_pay14 v8 v12 (ix2 p q) = chunkTerm v8 v12 p q 47 := by
  unfold k0_pay14
  simp only [step_apply]

/-- Terms 47 to 56: the pending term 47 is taken in, then nine more. -/
theorem pay15_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 47) (hb : vb (ix2 p q) = chunkTerm v8 v12 p q 47) :
    k0_pay15 v8 v12 va vb (ix2 p q) = runMax (chunkTerm v8 v12 p q) a 57 := by
  unfold k0_pay15
  simp only [maximumf_apply, step_apply, ha, hb]
  rfl

/-- Term 57, computed ahead of the maximum that takes it in. -/
theorem pay16_apply (v8 : FVec Ideal S64x128 .f32) (v12 : FVec Ideal S128x512 .f32) (p : Fin 64) (q : Fin 512) :
    k0_pay16 v8 v12 (ix2 p q) = chunkTerm v8 v12 p q 57 := by
  unfold k0_pay16
  simp only [step_apply]

/-- Terms 57 to 66: the pending term 57 is taken in, then nine more. -/
theorem pay17_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 57) (hb : vb (ix2 p q) = chunkTerm v8 v12 p q 57) :
    k0_pay17 v8 v12 va vb (ix2 p q) = runMax (chunkTerm v8 v12 p q) a 67 := by
  unfold k0_pay17
  simp only [maximumf_apply, step_apply, ha, hb]
  rfl

/-- Term 67, computed ahead of the maximum that takes it in. -/
theorem pay18_apply (v8 : FVec Ideal S64x128 .f32) (v12 : FVec Ideal S128x512 .f32) (p : Fin 64) (q : Fin 512) :
    k0_pay18 v8 v12 (ix2 p q) = chunkTerm v8 v12 p q 67 := by
  unfold k0_pay18
  simp only [step_apply]

/-- Terms 67 to 76: the pending term 67 is taken in, then nine more. -/
theorem pay19_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 67) (hb : vb (ix2 p q) = chunkTerm v8 v12 p q 67) :
    k0_pay19 v8 v12 va vb (ix2 p q) = runMax (chunkTerm v8 v12 p q) a 77 := by
  unfold k0_pay19
  simp only [maximumf_apply, step_apply, ha, hb]
  rfl

/-- Term 77, computed ahead of the maximum that takes it in. -/
theorem pay20_apply (v8 : FVec Ideal S64x128 .f32) (v12 : FVec Ideal S128x512 .f32) (p : Fin 64) (q : Fin 512) :
    k0_pay20 v8 v12 (ix2 p q) = chunkTerm v8 v12 p q 77 := by
  unfold k0_pay20
  simp only [step_apply]

/-- Terms 77 to 86: the pending term 77 is taken in, then nine more. -/
theorem pay21_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 77) (hb : vb (ix2 p q) = chunkTerm v8 v12 p q 77) :
    k0_pay21 v8 v12 va vb (ix2 p q) = runMax (chunkTerm v8 v12 p q) a 87 := by
  unfold k0_pay21
  simp only [maximumf_apply, step_apply, ha, hb]
  rfl

/-- Term 87, computed ahead of the maximum that takes it in. -/
theorem pay22_apply (v8 : FVec Ideal S64x128 .f32) (v12 : FVec Ideal S128x512 .f32) (p : Fin 64) (q : Fin 512) :
    k0_pay22 v8 v12 (ix2 p q) = chunkTerm v8 v12 p q 87 := by
  unfold k0_pay22
  simp only [step_apply]

/-- Terms 87 to 96: the pending term 87 is taken in, then nine more. -/
theorem pay23_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 87) (hb : vb (ix2 p q) = chunkTerm v8 v12 p q 87) :
    k0_pay23 v8 v12 va vb (ix2 p q) = runMax (chunkTerm v8 v12 p q) a 97 := by
  unfold k0_pay23
  simp only [maximumf_apply, step_apply, ha, hb]
  rfl

/-- Term 97, computed ahead of the maximum that takes it in. -/
theorem pay24_apply (v8 : FVec Ideal S64x128 .f32) (v12 : FVec Ideal S128x512 .f32) (p : Fin 64) (q : Fin 512) :
    k0_pay24 v8 v12 (ix2 p q) = chunkTerm v8 v12 p q 97 := by
  unfold k0_pay24
  simp only [step_apply]

/-- Terms 97 to 106: the pending term 97 is taken in, then nine more. -/
theorem pay25_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 97) (hb : vb (ix2 p q) = chunkTerm v8 v12 p q 97) :
    k0_pay25 v8 v12 va vb (ix2 p q) = runMax (chunkTerm v8 v12 p q) a 107 := by
  unfold k0_pay25
  simp only [maximumf_apply, step_apply, ha, hb]
  rfl

/-- Term 107, computed ahead of the maximum that takes it in. -/
theorem pay26_apply (v8 : FVec Ideal S64x128 .f32) (v12 : FVec Ideal S128x512 .f32) (p : Fin 64) (q : Fin 512) :
    k0_pay26 v8 v12 (ix2 p q) = chunkTerm v8 v12 p q 107 := by
  unfold k0_pay26
  simp only [step_apply]

/-- Terms 107 to 116: the pending term 107 is taken in, then nine more. -/
theorem pay27_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 107) (hb : vb (ix2 p q) = chunkTerm v8 v12 p q 107) :
    k0_pay27 v8 v12 va vb (ix2 p q) = runMax (chunkTerm v8 v12 p q) a 117 := by
  unfold k0_pay27
  simp only [maximumf_apply, step_apply, ha, hb]
  rfl

/-- Term 117, computed ahead of the maximum that takes it in. -/
theorem pay28_apply (v8 : FVec Ideal S64x128 .f32) (v12 : FVec Ideal S128x512 .f32) (p : Fin 64) (q : Fin 512) :
    k0_pay28 v8 v12 (ix2 p q) = chunkTerm v8 v12 p q 117 := by
  unfold k0_pay28
  simp only [step_apply]

/-- Terms 117 to 126: the pending term 117 is taken in, then nine more. -/
theorem pay29_of {v8 : FVec Ideal S64x128 .f32} {v12 : FVec Ideal S128x512 .f32} {va vb : FVec Ideal S64x512 .f32}
    {p : Fin 64} {q : Fin 512} {a : EReal}
    (ha : va (ix2 p q) = runMax (chunkTerm v8 v12 p q) a 117) (hb : vb (ix2 p q) = chunkTerm v8 v12 p q 117) :
    k0_pay29 v8 v12 va vb (ix2 p q) = runMax (chunkTerm v8 v12 p q) a 127 := by
  unfold k0_pay29
  simp only [maximumf_apply, step_apply, ha, hb]
  rfl

/-- Term 127, computed ahead of the maximum that takes it in. -/
theorem pay30_apply (v8 : FVec Ideal S64x128 .f32) (v12 : FVec Ideal S128x512 .f32) (p : Fin 64) (q : Fin 512) :
    k0_pay30 v8 v12 (ix2 p q) = chunkTerm v8 v12 p q 127 := by
  unfold k0_pay30
  simp only [step_apply]

/-- The chunk's last maximum takes in the pending term 127. -/
theorem pay2_of {va vb : FVec Ideal S64x512 .f32} {p : Fin 64} {q : Fin 512} {f : ℕ → EReal} {a : EReal}
    (ha : va (ix2 p q) = runMax f a 127) (hb : vb (ix2 p q) = f 127) :
    k0_pay2 va vb (ix2 p q) = runMax f a 128 := by
  unfold k0_pay2
  simp only [maximumf_apply, ha, hb]
  rfl

/-- The accumulator before the first chunk is the initial word at every entry. -/
theorem pay1_apply (j : S64x512.Idx) : k0_pay1 (F := Ideal) j = Scalar.ofBits (F := Ideal) .f32 0xFF800000#32 := rfl

/-- The activations' piece is used as loaded. -/
theorem pay3_apply (v7 : Vec Ideal S64x128 .f32) (j : S64x128.Idx) : k0_pay3 v7 j = v7 j := by
  unfold k0_pay3
  rw [shapeCast_self]

/-- The incidence piece is used as loaded: widening bf16 to f32 changes no extended real. -/
theorem pay4_apply (v10 : Vec Ideal S128x512 .bf16) (j : S128x512.Idx) : k0_pay4 v10 j = v10 j := by
  unfold k0_pay4
  rw [extf_apply, shapeCast_self]

end Cert.KernelIdeal.PoolValue

end
-- ==== Proof.Trip.lean ====
/-
  One trip of the chunk loop and the value the loop carries, read at an index.

  Trip k of the loop loads columns 128k … 128k+127 of the activations' block and rows 128k … 128k+127 of the
  incidence block, and takes the 128 terms of that chunk into the accumulator one after the other.  So the
  accumulator after k trips is, at entry (p, q), the maximum — taken chunk by chunk, each chunk term by term —
  of the initial value and the first 128·k products x(p, n) · b(n, q) of row p of the activations' block with
  column q of the incidence block (`RunMax.blockMax` of `rowTerm`).
-/
import proofs.«104553_j16320875724845_2_alg».proof.Proof.Gen.KernelIdeal.Loops
import proofs.«104553_j16320875724845_2_alg».proof.Proof.Steps

set_option maxRecDepth 16384

noncomputable section

namespace Cert.KernelIdeal.PoolValue

open Idealize.ShloMosaic Idealize.ShloMosaic.ValueIdx Idealize.ShloMosaic.TcCoe Idealize.SL Idealize.SL.Sem
open Cert.KernelIdeal Cert.KernelIdeal.Gen RunMax

/-- The loop makes eight trips. -/
theorem trips_eq : k0_t1_loop.trips = 8 := by decide

/-- Term `n` of the contraction at entry (p, q) of a block: x(p, n) · b(n, q) (for `n ≥ 1024`, which never
    occurs, any value). -/
def rowTerm (x0 : S64x1024.Idx → EReal) (x1 : S1024x512.Idx → EReal) (p : Fin 64) (q : Fin 512) (n : ℕ) : EReal :=
  if h : n < 1024 then x0 (ix2 p ⟨n, h⟩) * x1 (ix2 ⟨n, h⟩ q) else 0

variable (arg1 : Memref sig .tc .vmem S64x1024 .f32) (arg2 : Memref sig .tc .vmem S1024x512 .bf16)
  (X1 : BufTy.Contents (Elt Ideal) arg1.view.ty) (X2 : BufTy.Contents (Elt Ideal) arg2.view.ty)

/-- Term `i` of the chunk that trip `k` loads is term `128 k + i` of the whole contraction. -/
theorem chunkTerm_load (k : Fin k0_t1_loop.trips) (p : Fin 64) (q : Fin 512) (i : ℕ) (hi : i < 128) :
    chunkTerm (k0_pay3 (View.readAt (Elt Ideal) arg1.view (Rect.unit (s := S64x1024) (k0_off1 k) S64x128.size (k0_off1_inb k)).toLoadRect X1))
        (k0_pay4 (View.readAt (Elt Ideal) arg2.view (Rect.unit (s := S1024x512) (k0_off2 k) S128x512.size (k0_off2_inb k)).toLoadRect X2)) p q i
      = rowTerm (arg1.view.read (Elt Ideal) X1) (arg2.view.read (Elt Ideal) X2) p q (128 * k.val + i) := by
  have hk : k.val < 8 := trips_eq ▸ k.isLt
  have hn : 128 * k.val + i < 1024 := by omega
  have e1 : (Rect.unit (s := S64x1024) (k0_off1 k) S64x128.size (k0_off1_inb k)).toLoadRect.idx (ix2 p ⟨i, hi⟩)
      = ix2 p ⟨128 * k.val + i, hn⟩ := by
    funext a; apply Fin.ext
    match a with
    | ⟨0, _⟩ => show k0_off1 k 0 + 1 * p.val = p.val; rw [k0_off1_eq k]; show 0 + 1 * p.val = p.val; omega
    | ⟨1, _⟩ => show k0_off1 k 1 + 1 * i = 128 * k.val + i; rw [k0_off1_eq k]; show 128 * k.val + 1 * i = 128 * k.val + i; omega
  have e2 : (Rect.unit (s := S1024x512) (k0_off2 k) S128x512.size (k0_off2_inb k)).toLoadRect.idx (ix2 ⟨i, hi⟩ q)
      = ix2 ⟨128 * k.val + i, hn⟩ q := by
    funext a; apply Fin.ext
    match a with
    | ⟨0, _⟩ => show k0_off2 k 0 + 1 * i = 128 * k.val + i; rw [k0_off2_eq k]; show 128 * k.val + 1 * i = 128 * k.val + i; omega
    | ⟨1, _⟩ => show k0_off2 k 1 + 1 * q.val = q.val; rw [k0_off2_eq k]; show 0 + 1 * q.val = q.val; omega
  rw [chunkTerm, dif_pos hi, rowTerm, dif_pos hn, pay3_apply, pay4_apply, View.readAt_apply, View.readAt_apply, e1, e2]

variable (𝒱 : Variants) (c : Dev nD) (bd : Option 𝒱.V) (i : grid0.Coords) (harg1 : arg1.IsWhole) (harg2 : arg2.IsWhole)
  (arg3 : Memref sig .tc .vmem S64x512 .f32) (harg3 : arg3.IsWhole)

/-- ONE TRIP at entry (p, q): the 128 terms of chunk `k` are taken into the carried value one after the other. -/
theorem tripR_apply (k : Fin k0_t1_loop.trips) (acc : FVec Ideal S64x512 .f32) (p : Fin 64) (q : Fin 512) :
    tripR_k0_t1 (F := Ideal) 𝒱 c bd i arg1 harg1 arg2 harg2 arg3 harg3 X1 X2 k acc (ix2 p q)
      = runMax (fun j => rowTerm (arg1.view.read (Elt Ideal) X1) (arg2.view.read (Elt Ideal) X2) p q (128 * k.val + j))
          (acc (ix2 p q)) 128 := by
  refine Eq.trans ?_ (runMax_congr (fun j hj => chunkTerm_load arg1 arg2 X1 X2 k p q j hj))
  unfold tripR_k0_t1 trip_k0_t1
  dsimp only
  exact pay2_of (pay29_of (pay27_of (pay25_of (pay23_of (pay21_of (pay19_of (pay17_of (pay15_of (pay13_of (pay11_of (pay9_of (pay7_of (pay5_apply acc _ _ p q) (pay6_apply _ _ p q)) (pay8_apply _ _ p q)) (pay10_apply _ _ p q)) (pay12_apply _ _ p q)) (pay14_apply _ _ p q)) (pay16_apply _ _ p q)) (pay18_apply _ _ p q)) (pay20_apply _ _ p q)) (pay22_apply _ _ p q)) (pay24_apply _ _ p q)) (pay26_apply _ _ p q)) (pay28_apply _ _ p q)) (pay30_apply _ _ p q)

/-- THE CARRIED VALUE before trip `k`, at entry (p, q): the initial value and the first 128·k terms, chunk by chunk. -/
theorem st_apply (init : FVec Ideal S64x512 .f32) (p : Fin 64) (q : Fin 512) (k : ℕ) (hk : k ≤ 8) :
    st_k0_t1 (F := Ideal) 𝒱 c bd i arg1 harg1 arg2 harg2 arg3 harg3 X1 X2 init k (ix2 p q)
      = blockMax (rowTerm (arg1.view.read (Elt Ideal) X1) (arg2.view.read (Elt Ideal) X2) p q) 128 (init (ix2 p q)) k := by
  induction k with
  | zero => rfl
  | succ k ih =>
    have hk' : k < k0_t1_loop.trips := by rw [trips_eq]; omega
    refine (congrFun (st_k0_t1_succ (F := Ideal) 𝒱 c bd i arg1 harg1 arg2 harg2 arg3 harg3 X1 X2 init ⟨k, hk'⟩) (ix2 p q)).trans ?_
    rw [tripR_apply, blockMax_succ, ← ih (by omega)]

end Cert.KernelIdeal.PoolValue

end
-- ==== Proof.Block.lean ====
/-
  From one grid point's block to the whole output array.

  At grid point t the body leaves in the output's staging buffer, at entry (p, q), the maximum over n of
  x(p, n) · b(n, q), where x is the whole [64, 1024] activations array (its one block) and b is block t of the
  incidence array: columns 512 t … 512 t + 511.  The eight blocks written back tile the [64, 4096] output, so
  after the run the output holds, at (r, m), the maximum over n of x(r, n) · B(n, m) from the initial value
  (`arraySpec`).
-/
import proofs.«104553_j16320875724845_2_alg».proof.Proof.Gen.KernelIdeal.Frame
import proofs.«104553_j16320875724845_2_alg».proof.Proof.Trip

set_option maxRecDepth 16384

noncomputable section

namespace Cert.KernelIdeal.PoolValue

open Idealize.ShloMosaic Idealize.ShloMosaic.ValueIdx Idealize.ShloMosaic.TcCoe Idealize.SL Idealize.SL.Sem
open Cert.KernelIdeal Cert.KernelIdeal.Gen RunMax

/-- The value every maximum starts from: the word of minus infinity. -/
abbrev start : EReal := FloatOps.ofBits (F := Ideal) .f32 0xFF800000#32

/-- What a grid point leaves in its output block, from its two input blocks. -/
def blockSpec (x0 : S64x1024.Idx → EReal) (x1 : S1024x512.Idx → EReal) : S64x512.Idx → EReal :=
  fun j => (Finset.univ : Finset (Fin 1024)).fold max start (fun n => x0 (ix2 (j 0) n) * x1 (ix2 n (j 1)))

/-- What the output array holds after the run, from the two arrays the region reads. -/
def arraySpec (X : S64x1024.Idx → EReal) (B : S1024x4096.Idx → EReal) : S64x4096.Idx → EReal :=
  fun i => (Finset.univ : Finset (Fin 1024)).fold max start (fun n => X (ix2 (i 0) n) * B (ix2 n (i 1)))

theorem zero_offsets : (![0, 0] : Fin 2 → Nat) = fun _ => 0 := funext fun a => by fin_cases a <;> rfl

/-- THE BODY'S RESULT: the one store of the body writes the loop's result, which after all eight trips has taken in
    all 1024 terms. -/
theorem out_eq (c : Dev nD) (i : grid0.Coords) (arg1 : Memref sig .tc .vmem S64x1024 .f32) (harg1 : arg1.IsWhole)
    (arg2 : Memref sig .tc .vmem S1024x512 .bf16) (harg2 : arg2.IsWhole) (arg3 : Memref sig .tc .vmem S64x512 .f32) (harg3 : arg3.IsWhole)
    (x0 : Vec Ideal S64x1024 .f32) (x1 : Vec Ideal S1024x512 .bf16) :
    out0_A_2 (F := Ideal) c i arg1 harg1 arg2 harg2 arg3 harg3 x0 x1 = blockSpec x0 x1 := by
  unfold out0_A_2
  rw [View.read_writes_eq_canon _ _ _ (cover0_A_2 c i arg1 harg1 arg2 harg2 arg3 harg3 x0 x1)]
  unfold kernelRun0_A
  dsimp only
  rw [View.canon_unit_zero zero_offsets]
  have h8 : Scf.trips (0#32) (Scalar.addi 0#32 8#32) 1#32 = 8 := by decide
  rw [h8]
  funext j
  obtain ⟨p, q, rfl⟩ : ∃ (p : Fin 64) (q : Fin 512), j = ix2 p q := ⟨j 0, j 1, eq_ix2 j⟩
  rw [st_apply arg1 arg2 _ _ Variants.none c none i harg1 harg2 arg3 harg3 k0_pay1 p q 8 le_rfl,
    harg1.read_unread, harg2.read_unread]
  exact blockMax_eq_fold _ 128 8 rfl _ _ (fun n => by rw [rowTerm, dif_pos n.isLt])

variable (m : (ℓ : Loc nD τ sig) → Buf (Elt Ideal) ℓ) (ρ : Dev nD → PrngReg)

/-- The printed index maps over the grid: the activations' window stays at block (0, 0); the incidence window and
    the output window are both at block (0, t). -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- WHAT POINT `t` WRITES BACK is block `t` of `arraySpec` of the two arrays as the region finds them. -/
theorem flushed_eq (c : Dev nD) (t : Fin cfg0.N) :
    (dats m 0 c).flushed 2 t
      = ((cfg0.win 2).blk t).view.read (Elt Ideal) (arraySpec (V m c main_v0) (V m c main_v1)) := by
  show (cfg0.win 2).cut (grid0.coords t) ((dats m 0 c).after 2 t) = _
  rw [after0_2]
  unfold outsAt0
  rw [out_eq]
  obtain ⟨e0, e1, e2, e3, e4, e5⟩ := idx_facts t
  funext j
  show blockSpec (iblk m c 0 t) (iblk m c 1 t) j = arraySpec (V m c main_v0) (V m c main_v1) (((cfg0.win 2).blk t).view.emb j)
  unfold blockSpec arraySpec
  refine Finset.fold_congr (fun n _ => ?_)
  have h0 : ((cfg0.win 0).blk t).view.emb (ix2 (j 0) n) = ix2 ((((cfg0.win 2).blk t).view.emb j) 0) n := by
    funext a; apply Fin.ext
    match a with
    | ⟨0, _⟩ => show win0_0.index t (0 : Fin 2) * 64 + 1 * (j 0).val = win0_2.index t (0 : Fin 2) * 64 + 1 * (j 0).val; omega
    | ⟨1, _⟩ => show win0_0.index t (1 : Fin 2) * 1024 + 1 * n.val = n.val; omega
  have h1 : ((cfg0.win 1).blk t).view.emb (ix2 n (j 1)) = ix2 n ((((cfg0.win 2).blk t).view.emb j) 1) := by
    funext a; apply Fin.ext
    match a with
    | ⟨0, _⟩ => show win0_1.index t (0 : Fin 2) * 1024 + 1 * n.val = n.val; omega
    | ⟨1, _⟩ => show win0_1.index t (1 : Fin 2) * 512 + 1 * (j 1).val = win0_2.index t (1 : Fin 2) * 512 + 1 * (j 1).val; omega
  have g0 : iblk m c 0 t (ix2 (j 0) n) = V m c main_v0 (ix2 ((((cfg0.win 2).blk t).view.emb j) 0) n) :=
    congrArg (V m c main_v0) h0
  have g1 : iblk m c 1 t (ix2 n (j 1)) = V m c main_v1 (ix2 n ((((cfg0.win 2).blk t).view.emb j) 1)) :=
    congrArg (V m c main_v1) h1
  exact congr (congrArg _ g0) g1

/-- An index of the output array is in point `t`'s block iff each coordinate is in the block's range on its axis. -/
theorem mem_blk (t : Fin cfg0.N) (i : S64x4096.Idx) :
    i ∈ ((cfg0.win 2).blk t).view.set ↔ ∀ a : Fin 2, win0_2.index t a * S64x512.size a ≤ (i a).val ∧ (i a).val < win0_2.index t a * S64x512.size a + S64x512.size a := by
  show i ∈ ((View.whole main_v2).slice (win0_2.rect t)).set ↔ _
  rw [View.set_slice_whole, Rect.mem_set_unit]
  exact Iff.rfl

/-- The eight blocks tile the output: column `m` lies in block `m / 512`. -/
theorem cover (i : S64x4096.Idx) : ∃ t : Fin cfg0.N, (cfg0.win 2).flush t = true ∧ i ∈ ((cfg0.win 2).blk t).view.set := by
  have hi0 : (i 0).val < 64 := (i 0).isLt
  have hi1 : (i 1).val < 4096 := (i 1).isLt
  let t : Fin cfg0.N := ⟨(i 1).val / 512, by show (i 1).val / 512 < grid0.N; rw [N_0]; omega⟩
  obtain ⟨-, -, -, -, e4, e5⟩ := idx_facts t
  have e5' : win0_2.index t (1 : Fin 2) = (i 1).val / 512 := e5
  refine ⟨t, flush0_2 t, (mem_blk t i).mpr fun a => ?_⟩
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 512 ≤ (i 1).val ∧ (i 1).val < win0_2.index t (1 : Fin 2) * 512 + 512; omega

/-- THE OUTPUT ARRAY after the run. -/
theorem final (c : Dev nD) : (dats m 0 c).arrAt 2 cfg0.N = arraySpec (V m c main_v0) (V m c main_v1) :=
  (dats m 0 c).arrAt_eq_of_cover 2 _ (fun t _ => flushed_eq m c t) cover

end Cert.KernelIdeal.PoolValue

end
-- ==== Proof.Spec.lean ====
/-
  The specification both programs are compared with.

  For activations x of shape [2, 32, 1024] and an incidence matrix B of shape [1024, 4096] the pooled result at
  (b, f, m) is the maximum, over the 1024 contraction positions n, of x(b, f, n) · B(n, m), started from the
  word of minus infinity: a fold of `max` over `Fin 1024`.  Products and maxima are those of the extended reals.
-/
import Idealize.ShloMosaic.PureOps.Ideal
import Idealize.ShloMosaic.Lib.ValueIdx

noncomputable section

namespace PoolSpec

open Idealize.ShloMosaic Idealize.ShloMosaic.ValueIdx

/-- The value every maximum starts from: the f32 word of minus infinity, read at the extended reals. -/
abbrev start : EReal := FloatOps.ofBits (F := Ideal) .f32 0xFF800000#32

/-- The pooled result: at (b, f, m) the maximum over n of x(b, f, n) · B(n, m). -/
def poolSpec (x : (⟨3, ![2, 32, 1024]⟩ : Shape).Idx → EReal) (B : (⟨2, ![1024, 4096]⟩ : Shape).Idx → EReal) :
    (⟨3, ![2, 32, 4096]⟩ : Shape).Idx → EReal :=
  fun i => (Finset.univ : Finset (Fin 1024)).fold max start (fun n => x (ix3 (i 0) (i 1) n) * B (ix2 n (i 2)))

end PoolSpec

end
-- ==== Proof.KernelRun.lean ====
/-
  The kernel's program from end to end.

  Before the region the host views the activations [2, 32, 1024] as a matrix [64, 1024], row 32 b + f holding
  x(b, f, ·), and narrows the incidence matrix to bf16, which changes no extended real.  After the region it views
  the [64, 4096] output as [2, 32, 4096] again.  So the program's result at (b, f, m) is the region's output at
  (32 b + f, m): the maximum over n of x(b, f, n) · B(n, m) — the specification.
-/
import proofs.«104553_j16320875724845_2_alg».proof.Proof.Block
import proofs.«104553_j16320875724845_2_alg».proof.Proof.Spec
import Idealize.ShloMosaic.Lib.StableHlo.Run

set_option maxRecDepth 16384

noncomputable section

namespace Cert.KernelIdeal.PoolValue

open Idealize.ShloMosaic Idealize.ShloMosaic.ValueIdx Idealize.ShloMosaic.TcCoe Idealize.SL Idealize.SL.Sem
open Idealize.ShloMosaic.StableHlo
open Cert.KernelIdeal Cert.KernelIdeal.Gen RunMax

variable (m : (ℓ : Loc nD τ sig) → Buf (Elt Ideal) ℓ) (ρ : Dev nD → PrngReg)

/-- The region finds the activations as the host's [64, 1024] view of the argument. -/
theorem V_v0 (c : Dev nD) : (V m c main_v0 : S64x1024.Idx → EReal)
    = shapeCast S64x1024 (m ((c : Thread nD τ).loc main_arg0)) shapeCasts_S2x32x1024_S64x1024 := by
  show StableHlo.after hostOps0 (fun b => m (c, b)) (Proc.devRef .tc main_v0) = _
  after_results
  rfl

/-- The region finds the incidence matrix as the host's narrowing of the argument. -/
theorem V_v1 (c : Dev nD) : (V m c main_v1 : S1024x4096.Idx → EReal)
    = (truncf (F := Ideal) .bf16 (m ((c : Thread nD τ).loc main_arg1) : FVec Ideal S1024x4096 .f32) bitsLt_bf16_f32 : FVec Ideal S1024x4096 .bf16) := by
  show StableHlo.after hostOps0 (fun b => m (c, b)) (Proc.devRef .tc main_v1) = _
  after_results

/-- The host line after the region shows the region's output array as [2, 32, 4096]. -/
theorem tail_eq (c : Dev nD) : Pipeline.afterTail₀ cfgs (dats m) 0 (V0 m) [hostOps1] c main_v3
    = shapeCast S2x32x4096 (arraySpec (V m c main_v0) (V m c main_v1)) shapeCasts_S64x4096_S2x32x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = arraySpec (V m c main_v0) (V m c main_v1) :=
    (Pipeline.withArrays_arr spec0 launch0.win.arr_inj c _ _ 2).trans (final m c)
  funext i
  exact congrFun (congrArg (fun A => shapeCast S2x32x4096 A shapeCasts_S64x4096_S2x32x4096) e) i

/-- THE PROGRAM'S RESULT is the specification of its two arguments: entry (b, f, m) of the result is entry
    (32 b + f, m) of the region's output, and row 32 b + f of the region's activations is x(b, f, ·). -/
theorem result_eq (c : Dev nD) : Pipeline.afterTail₀ cfgs (dats m) 0 (V0 m) [hostOps1] c main_v3
    = PoolSpec.poolSpec (m ((c : Thread nD τ).loc main_arg0)) (m ((c : Thread nD τ).loc main_arg1)) := by
  rw [tail_eq]
  funext j
  obtain ⟨b, f, mm, rfl⟩ : ∃ (b : Fin 2) (f : Fin 32) (mm : Fin 4096), j = ix3 b f mm := ⟨j 0, j 1, j 2, eq_ix3 j⟩
  have hb : b.val < 2 := b.isLt
  have hf : f.val < 32 := f.isLt
  have hr : 32 * b.val + f.val < 64 := by omega
  rw [shapeCast_apply _ shapeCasts_S64x4096_S2x32x4096 (ix3 b f mm) (ix2 (⟨32 * b.val + f.val, hr⟩ : Fin 64) mm) (by
    rw [Shape.rowMajor_val_two, Shape.rowMajor_val_three]
    show (32 * b.val + f.val) * 4096 + mm.val = (b.val * 32 + f.val) * 4096 + mm.val
    omega)]
  unfold arraySpec PoolSpec.poolSpec
  refine Finset.fold_congr (fun n _ => ?_)
  have g0 : (V m c main_v0 : S64x1024.Idx → EReal) (ix2 (⟨32 * b.val + f.val, hr⟩ : Fin 64) n)
      = m ((c : Thread nD τ).loc main_arg0) (ix3 b f n) := by
    rw [V_v0, shapeCast_apply _ shapeCasts_S2x32x1024_S64x1024 (ix2 (⟨32 * b.val + f.val, hr⟩ : Fin 64) n) (ix3 b f n) (by
      rw [Shape.rowMajor_val_two, Shape.rowMajor_val_three]
      show (b.val * 32 + f.val) * 1024 + n.val = (32 * b.val + f.val) * 1024 + n.val
      omega)]
  have g1 : (V m c main_v1 : S1024x4096.Idx → EReal) (ix2 n mm) = m ((c : Thread nD τ).loc main_arg1) (ix2 n mm) := by
    rw [V_v1]; rfl
  exact congr (congrArg _ g0) g1

/-- THE KERNEL'S RUN: every weakly fair execution terminates with the result array at the specification of the
    argument arrays, and the argument arrays as they were. -/
theorem run : θ_run defs (onTc (τ := τ) (main (F := Ideal))) ⟨m, fun _ => 0, ρ⟩ fun r => ∀ c : Dev nD,
      r.2.mem ((c : Thread nD τ).loc main_v3)
        = PoolSpec.poolSpec (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.PoolValue

end
-- ==== Proof.RefRead.lean ====
/-
  The reference computes the specification.

  The reference stretches x to [2, 32, 1024, 4096] along a new last axis and B to the same shape along two new
  leading axes, multiplies them entry by entry, and reduces axis 2 with `max` from minus infinity.  A reduce over
  one axis with a commutative, associative body is the fold over that axis's coordinates; the entry of the product
  at (b, f, n, m) is x(b, f, n) · B(n, m).
-/
import proofs.«104553_j16320875724845_2_alg».proof.Proof.Gen.ReferenceIdeal.Read
import proofs.«104553_j16320875724845_2_alg».proof.Proof.Spec
import Idealize.ShloMosaic.PureOps.Reduce
import Idealize.ShloMosaic.PureOps.Ideal.Laws

noncomputable section

namespace Cert.ReferenceIdeal.PoolRef

open Idealize.ShloMosaic Idealize.ShloMosaic.ValueIdx Cert.ReferenceIdeal Cert.ReferenceIdeal.Gen Cert.ReferenceIdeal.Read PoolSpec

/-- The reduced index (b, f, m) with the coordinate `k` put back on axis 2 is (b, f, k, m). -/
theorem lift_eq (h : S2x32x1024x4096.Reduces [2] S2x32x4096) (b : Fin 2) (f : Fin 32) (mm : Fin 4096) (k : Fin 1024) :
    h.lift (ix3 b f mm) k = ix4 b f k mm := by
  funext c; apply Fin.ext
  fin_cases c <;> rfl

/-- THE REFERENCE'S RESULT is the specification of its two arguments. -/
theorem ref_eq (x0 : S2x32x1024.Idx → EReal) (x1 : S1024x4096.Idx → EReal) :
    val_main_v5 (F := Ideal) x0 x1 = poolSpec x0 x1 := by
  funext j
  obtain ⟨b, f, mm, rfl⟩ : ∃ (b : Fin 2) (f : Fin 32) (mm : Fin 4096), j = ix3 b f mm := ⟨j 0, j 1, j 2, eq_ix3 j⟩
  unfold val_main_v5
  have h : S2x32x1024x4096.Reduces [2] S2x32x4096 := by decide
  rw [Host.reduce_eq_fold_single (FloatOps.maximumf (F := Ideal) (φ := .f32)) (val_main_v4 (F := Ideal) x0 x1)
    (val_main_cst (F := Ideal)) reducesTo_S2x32x1024x4096_S2x32x4096_d2 h h_S_ (ix3 b f mm)]
  have hf : (val_main_v4 (F := Ideal) x0 x1 ∘ h.lift (ix3 b f mm)) = fun n : Fin 1024 => x0 (ix3 b f n) * x1 (ix2 n mm) := by
    funext (n : Fin 1024)
    show val_main_v4 (F := Ideal) x0 x1 (h.lift (ix3 b f mm) n) = _
    rw [lift_eq h b f mm n, val_main_v4_apply, val_main_v2_apply, val_main_v0_apply, val_main_v3_apply, val_main_v1_apply]
    have e0 : idx_main_v0 (idx_main_v2 (ix4 b f n mm)) = ix3 b f n := by
      funext a; apply Fin.ext
      match a with | ⟨0, _⟩ => rfl | ⟨1, _⟩ => rfl | ⟨2, _⟩ => rfl
    have e1 : idx_main_v1 (idx_main_v3 (ix4 b f n mm)) = ix2 n mm := by
      funext a; apply Fin.ext
      match a with | ⟨0, _⟩ => rfl | ⟨1, _⟩ => rfl
    rw [e0, e1]
    rfl
  exact congrArg (fun g => Finset.fold max start g (Finset.univ : Finset (Fin 1024))) hf

end Cert.ReferenceIdeal.PoolRef

end
-- ==== Proof.lean ====
/-
  Pooling over an incidence matrix: y(b, f, m) = max over n of x(b, f, n) · B(n, m).

  The kernel views x as a [64, 1024] matrix, narrows B to bf16, and for each of eight blocks of 512 output
  columns keeps a running maximum while it walks the 1024 contraction positions in eight chunks of 128, one
  position at a time, starting from minus infinity; the reference forms the whole [2, 32, 1024, 4096] product and
  reduces its third axis with `max` from minus infinity.  On the extended reals the narrowing and widening of
  B change nothing and both programs multiply the same two numbers at every (b, f, n, m), so the two results
  are maxima of the same 1024 terms from the same start.  A maximum does not depend on the order or grouping in
  which its terms are taken in: each side has, as its upper bounds, exactly the common upper bounds of the start
  and the 1024 terms.  No finiteness of the inputs is used.

  The frames of the two kernel programs are the generated frame certificates; the reference's frame is its
  generated run with the result dropped; the idealization rewrote nothing, so `preserves` is `True`.
-/
import proofs.«104553_j16320875724845_2_alg».proof.Defs
import proofs.«104553_j16320875724845_2_alg».proof.Proof.Gen.Kernel
import proofs.«104553_j16320875724845_2_alg».proof.Proof.Gen.Kernel.Frame
import proofs.«104553_j16320875724845_2_alg».proof.Proof.Gen.KernelIdeal
import proofs.«104553_j16320875724845_2_alg».proof.Proof.Gen.KernelIdeal.Frame
import proofs.«104553_j16320875724845_2_alg».proof.Proof.Gen.ReferenceIdeal
import proofs.«104553_j16320875724845_2_alg».proof.Proof.Gen.ReferenceIdeal.Run
import proofs.«104553_j16320875724845_2_alg».proof.Proof.Gen.ReferenceIdeal.Read
import proofs.«104553_j16320875724845_2_alg».proof.Proof.Gen.Pre_finite_inputs
import proofs.«104553_j16320875724845_2_alg».proof.Proof.KernelRun
import proofs.«104553_j16320875724845_2_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification of the argument arrays as their result, and the arguments agree. -/
theorem algebraic : Cert.algebraic_KernelIdeal_ReferenceIdeal := by
  intro m ρ m' ρ' _ hagree
  refine ⟨fun c => PoolSpec.poolSpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.PoolValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v5_eq, Cert.ReferenceIdeal.PoolRef.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
